-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x2048 : Shape := ⟨3, ![256, 128, 2048]⟩
abbrev S_ : Shape := ⟨0, ![]⟩

class Facts : Prop where
  bcast_S_S256x128x2048 : S_.BroadcastsInDim S256x128x2048 (![] : Fin 0 → Fin S256x128x2048.rank)
  reducesTo_S256x128x2048_S_d0_1_2 : S256x128x2048.ReducesTo [0, 1, 2] S_
  h_S_ : 0 < S_.numel

variable [Facts]

def fn {F : FTy → Type} [FloatOps F] (main_arg0 : FVec F S256x128x2048 .f32) : IVec S_ 1 :=
  let main_v0 : FVec F S256x128x2048 .f32 := Host.absf main_arg0
  let main_cst : FVec F S_ .f32 := constant S_ .f32 0x7F800000#32
  let main_v1 : FVec F S256x128x2048 .f32 := broadcastInDim S256x128x2048 ![] bcast_S_S256x128x2048 main_cst
  let main_v2 : IVec S256x128x2048 1 := cmpf .olt main_v0 main_v1
  let main_c : IVec S_ 1 := constantI S_ 1 1#1
  let main_v3 : IVec S_ 1 := (fun x v => Host.reduce IntOp.andi x v reducesTo_S256x128x2048_S_d0_1_2 h_S_) main_v2 main_c
  main_v3
-- ==== Kernel.lean ====
abbrev S256x128x2048 : Shape := ⟨3, ![256, 128, 2048]⟩
abbrev S4x128x2048 : Shape := ⟨3, ![4, 128, 2048]⟩
abbrev S4x2048 : Shape := ⟨2, ![4, 2048]⟩
abbrev S4x1x2048 : Shape := ⟨3, ![4, 1, 2048]⟩
abbrev S4x128 : Shape := ⟨2, ![4, 128]⟩
abbrev S4x128x1 : Shape := ⟨3, ![4, 128, 1]⟩

abbrev nBuf : Space → Nat
  | .hbm => 2
  | .vmem => 4
  | .smem => 0
  | _ => 0

abbrev bufTy : (tb : Table) → Fin (tcTables nBuf tb) → BufTy
  | .hbm, ⟨0, _⟩ => ⟨S256x128x2048, .f32⟩
  | .hbm, ⟨1, _⟩ => ⟨S256x128x2048, .f32⟩
  | .local _ .vmem, ⟨0, _⟩ => ⟨S4x128x2048, .f32⟩
  | .local _ .vmem, ⟨1, _⟩ => ⟨S4x128x2048, .f32⟩
  | .local _ .vmem, ⟨2, _⟩ => ⟨S4x128x2048, .f32⟩
  | .local _ .vmem, ⟨3, _⟩ => ⟨S4x128x2048, .f32⟩
  | _, _ => ⟨S256x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x128x2048_S4x128x2048_0_0_0 : ∀ a, (![0, 0, 0] : Fin 3 → Nat) a + S4x128x2048.size a ≤ S4x128x2048.size a
  h_S4x128x2048 : 0 < S4x128x2048.numel
  reduces_S4x128x2048_S4x2048 : S4x128x2048.Reduces [1] S4x2048
  shapeCasts_S4x2048_S4x1x2048 : S4x2048.ShapeCasts S4x1x2048
  broadcasts_S4x1x2048_S4x128x2048 : S4x1x2048.Broadcasts S4x128x2048
  reduces_S4x128x2048_S4x128 : S4x128x2048.Reduces [2] S4x128
  shapeCasts_S4x128_S4x128x1 : S4x128.ShapeCasts S4x128x1
  broadcasts_S4x128x1_S4x128x2048 : S4x128x1.Broadcasts S4x128x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x2048.size a ≤ S256x128x2048.size a
  hwx0_0 : ∀ i : grid0.Coords, EltTy.bits .f32 = 32 ∨ (Rect.block (s := S256x128x2048) S4x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x128x2048.size a ≤ S256x128x2048.size a
  hwx0_1 : ∀ i : grid0.Coords, EltTy.bits .f32 = 32 ∨ (Rect.block (s := S256x128x2048) S4x128x2048.size (cc0_transform_1 i) (hinb0_1 i)).WholeWords (EltTy.packing .f32)

variable [Facts₀]

abbrev win0_0 : Pipeline.Window sig grid0 :=
  Pipeline.Window.ofSpec (Memref.whole main_arg0) S4x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x128x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x128x2048 : Shape := ⟨3, ![256, 128, 2048]⟩
abbrev S_ : Shape := ⟨0, ![]⟩
abbrev S256x2048 : Shape := ⟨2, ![256, 2048]⟩
abbrev S256x1x2048 : Shape := ⟨3, ![256, 1, 2048]⟩
abbrev S256x128 : Shape := ⟨2, ![256, 128]⟩
abbrev S256x128x1 : Shape := ⟨3, ![256, 128, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x128x2048, .f32⟩
  | .hbm, ⟨1, _⟩ => ⟨S_, .f32⟩
  | .hbm, ⟨2, _⟩ => ⟨S256x2048, .f32⟩
  | .hbm, ⟨3, _⟩ => ⟨S256x1x2048, .f32⟩
  | .hbm, ⟨4, _⟩ => ⟨S_, .f32⟩
  | .hbm, ⟨5, _⟩ => ⟨S256x1x2048, .f32⟩
  | .hbm, ⟨6, _⟩ => ⟨S256x1x2048, .f32⟩
  | .hbm, ⟨7, _⟩ => ⟨S256x128x2048, .f32⟩
  | .hbm, ⟨8, _⟩ => ⟨S256x128x2048, .f32⟩
  | .hbm, ⟨9, _⟩ => ⟨S_, .f32⟩
  | .hbm, ⟨10, _⟩ => ⟨S256x128, .f32⟩
  | .hbm, ⟨11, _⟩ => ⟨S256x128x1, .f32⟩
  | .hbm, ⟨12, _⟩ => ⟨S_, .f32⟩
  | .hbm, ⟨13, _⟩ => ⟨S256x128x1, .f32⟩
  | .hbm, ⟨14, _⟩ => ⟨S256x128x1, .f32⟩
  | .hbm, ⟨15, _⟩ => ⟨S_, .i32⟩
  | .hbm, ⟨16, _⟩ => ⟨S_, .f32⟩
  | .hbm, ⟨17, _⟩ => ⟨S256x128, .f32⟩
  | .hbm, ⟨18, _⟩ => ⟨S256x128x1, .f32⟩
  | .hbm, ⟨19, _⟩ => ⟨S_, .f32⟩
  | .hbm, ⟨20, _⟩ => ⟨S256x128x1, .f32⟩
  | .hbm, ⟨21, _⟩ => ⟨S256x128x1, .f32⟩
  | .hbm, ⟨22, _⟩ => ⟨S256x128x2048, .f32⟩
  | .hbm, ⟨23, _⟩ => ⟨S256x128x2048, .f32⟩
  | .hbm, ⟨24, _⟩ => ⟨S256x128x2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S256x128, .f32⟩
  | .hbm, ⟨30, _⟩ => ⟨S256x128x1, .f32⟩
  | .hbm, ⟨31, _⟩ => ⟨S256x128x1, .f32⟩
  | .hbm, ⟨32, _⟩ => ⟨S256x128x1, .f32⟩
  | .hbm, ⟨33, _⟩ => ⟨S_, .f32⟩
  | .hbm, ⟨34, _⟩ => ⟨S_, .i1⟩
  | .hbm, ⟨35, _⟩ => ⟨S_, .f32⟩
  | .hbm, ⟨36, _⟩ => ⟨S_, .f32⟩
  | .hbm, ⟨37, _⟩ => ⟨S256x128x1, .f32⟩
  | .hbm, ⟨38, _⟩ => ⟨S256x128x1, .f32⟩
  | .hbm, ⟨39, _⟩ => ⟨S256x128x1, .f32⟩
  | .hbm, ⟨40, _⟩ => ⟨S_, .f32⟩
  | .hbm, ⟨41, _⟩ => ⟨S256x128x1, .f32⟩
  | .hbm, ⟨42, _⟩ => ⟨S256x128x1, .i1⟩
  | .hbm, ⟨43, _⟩ => ⟨S_, .f32⟩
  | .hbm, ⟨44, _⟩ => ⟨S256x128x1, .f32⟩
  | .hbm, ⟨45, _⟩ => ⟨S256x128x1, .f32⟩
  | .hbm, ⟨46, _⟩ => ⟨S256x128x2048, .f32⟩
  | .hbm, ⟨47, _⟩ => ⟨S256x128x2048, .f32⟩
  | .hbm, ⟨48, _⟩ => ⟨S256x128x2048, .f32⟩
  | .hbm, ⟨49, _⟩ => ⟨S256x128x2048, .f32⟩
  | _, _ => ⟨S256x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_cst_0 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_cst_1 : Ref sig .tc := ⟨.hbm, 26, rfl⟩
abbrev main_call0_call0_v8 : Ref sig .tc := ⟨.hbm, 27, rfl⟩
abbrev main_call0_call0_cst_2 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_call0_v12 : Ref sig .tc := ⟨.hbm, 32, rfl⟩
abbrev main_call0_call0_cst_3 : Ref sig .tc := ⟨.hbm, 33, rfl⟩
abbrev main_call0_call0_v13 : Ref sig .tc := ⟨.hbm, 34, rfl⟩
abbrev main_call0_call0_cst_4 : Ref sig .tc := ⟨.hbm, 35, rfl⟩
abbrev main_call0_call0_call0_v0 : Ref sig .tc := ⟨.hbm, 36, rfl⟩
abbrev main_call0_call0_call0_v1 : Ref sig .tc := ⟨.hbm, 37, rfl⟩
abbrev main_call0_v0 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  reducesTo_S256x128x2048_S256x2048_d1 : S256x128x2048.ReducesTo [1] S256x2048
  h_S_ : 0 < S_.numel
  bcast_S256x2048_S256x1x2048_0_2 : S256x2048.BroadcastsInDim S256x1x2048 (![0, 2] : Fin 2 → Fin S256x1x2048.rank)
  bcast_S_S256x1x2048 : S_.BroadcastsInDim S256x1x2048 (![] : Fin 0 → Fin S256x1x2048.rank)
  bcast_S256x1x2048_S256x128x2048_0_1_2 : S256x1x2048.BroadcastsInDim S256x128x2048 (![0, 1, 2] : Fin 3 → Fin S256x128x2048.rank)
  reducesTo_S256x128x2048_S256x128_d2 : S256x128x2048.ReducesTo [2] S256x128
  bcast_S256x128_S256x128x1_0_1 : S256x128.BroadcastsInDim S256x128x1 (![0, 1] : Fin 2 → Fin S256x128x1.rank)
  bcast_S_S256x128x1 : S_.BroadcastsInDim S256x128x1 (![] : Fin 0 → Fin S256x128x1.rank)
  bcast_S256x128x1_S256x128x2048_0_1_2 : S256x128x1.BroadcastsInDim S256x128x2048 (![0, 1, 2] : Fin 3 → Fin S256x128x2048.rank)

variable [Facts₀]

class Facts : Prop extends Facts₀ where

variable [Facts]
-- ==== Proof.ZScore.lean ====
/-
  Average reference and z-score of an EEG recording, as one function of the input on the extended reals.

  For one recording `f c t` (128 channels `c`, 2048 time samples `t`):
    * the channel mean at each time, `chanMean f t = (∑ c, f c t) / 128`, is subtracted: `centered f c t`;
    * each channel's mean over time, `timeMean f c = (∑ t, centered f c t) / 2048`, is subtracted: `dev f c t`;
    * each channel's population variance is `variance f c = (∑ t, (dev f c t)²) / 2048`;
    * the result is `dev f c t` divided by the standard deviation, a zero standard deviation replaced by one.
  The last step is spelt in two ways. `kerOut` multiplies by `1/√v` where `v > 0` and by `1` elsewhere; `refOut`
  divides by `√v`, replaced by `1` where `√v = 0`. On real inputs the variance is a real `v ≥ 0`, so `v > 0` exactly when
  `√v ≠ 0`, and a quotient by a nonzero real is the product with its inverse: the two agree (`kerOut_eq_refOut`,
  proved in the module of the scalar law). The float literals stay the words the programs spell; `w128_eq` … give their values.
-/
import Idealize.ShloMosaic.PureOps.Ideal
import Idealize.ShloMosaic.PureOps.Ideal.Laws
import Idealize.ShloMosaic.Lib.ValueIdx

noncomputable section

namespace Cert.ZScore

open Idealize.ShloMosaic Idealize.ShloMosaic.ValueIdx

/-- The word of `128.0`, the number of channels. -/
abbrev w128 : EReal := Ideal.ofBits .f32 0x43000000#32
/-- The word of `2048.0`, the number of time samples. -/
abbrev w2048 : EReal := Ideal.ofBits .f32 0x45000000#32
/-- The word of `0.0`. -/
abbrev w0 : EReal := Ideal.ofBits .f32 0x00000000#32
/-- The word of `1.0`. -/
abbrev w1 : EReal := Ideal.ofBits .f32 0x3F800000#32

theorem w128_eq : w128 = ((128 : ℝ) : EReal) := by
  simp [w128, Ideal.ofBits, Ideal.ieee, -EReal.coe_mul]; norm_num
theorem w2048_eq : w2048 = ((2048 : ℝ) : EReal) := by
  simp [w2048, Ideal.ofBits, Ideal.ieee, -EReal.coe_mul]; norm_num
theorem w0_eq : w0 = 0 := Ideal.ofBits_zero_f32
theorem w1_eq : w1 = 1 := by
  simp [w1, Ideal.ofBits, Ideal.ieee, -EReal.coe_mul]; norm_num

/-- One recording: channel by time. -/
abbrev Slab : Type := Fin 128 → Fin 2048 → EReal

/-- The mean over the channels at one time sample. -/
def chanMean (f : Slab) (t : Fin 2048) : EReal := Ideal.div (∑ c : Fin 128, f c t) w128
/-- The recording re-referenced to the channel mean. -/
def centered (f : Slab) (c : Fin 128) (t : Fin 2048) : EReal := f c t - chanMean f t
/-- A re-referenced channel's mean over time. -/
def timeMean (f : Slab) (c : Fin 128) : EReal := Ideal.div (∑ t : Fin 2048, centered f c t) w2048
/-- The deviation of a re-referenced sample from its channel's mean over time. -/
def dev (f : Slab) (c : Fin 128) (t : Fin 2048) : EReal := centered f c t - timeMean f c
/-- A channel's population variance over time. -/
def variance (f : Slab) (c : Fin 128) : EReal := Ideal.div (∑ t : Fin 2048, dev f c t * dev f c t) w2048

/-- The factor `1/√v` where the variance is positive, `1` elsewhere. -/
def kerScale (v : EReal) : EReal := Scalar.select (Ideal.cmp .ogt v w0) (Ideal.rsqrt v) w1
/-- The divisor `√v`, replaced by `1` where it is zero. -/
def refScale (v : EReal) : EReal := Scalar.select (Ideal.cmp .oeq (Ideal.sqrt v) w0) w1 (Ideal.sqrt v)

/-- The z-score as a product with the inverse standard deviation. -/
def kerOut (f : Slab) (c : Fin 128) (t : Fin 2048) : EReal := dev f c t * kerScale (variance f c)
/-- The z-score as a quotient by the standard deviation. -/
def refOut (f : Slab) (c : Fin 128) (t : Fin 2048) : EReal := Ideal.div (dev f c t) (refScale (variance f c))

/-- Recording `b` of a batch of 256. -/
def slab (X : (⟨3, ![256, 128, 2048]⟩ : Shape).Idx → EReal) (b : Fin 256) : Slab := fun c t => X (ix3 b c t)

/-- The whole batch, z-scored recording by recording. -/
def zscore (X : (⟨3, ![256, 128, 2048]⟩ : Shape).Idx → EReal) : (⟨3, ![256, 128, 2048]⟩ : Shape).Idx → EReal :=
  fun i => kerOut (slab X (i 0)) (i 1) (i 2)

theorem zscore_ix3 (X : (⟨3, ![256, 128, 2048]⟩ : Shape).Idx → EReal) (b : Fin 256) (c : Fin 128) (t : Fin 2048) :
    zscore X (ix3 b c t) = kerOut (slab X b) c t := rfl

end Cert.ZScore

end
-- ==== Proof.ZScoreLaw.lean ====
/-
  The scalar law behind the two spellings of the z-score.

  On a recording whose entries are all reals every stage of the specification is a real: a finite sum of reals is a
  real, a quotient by the nonzero reals 128 and 2048 is the product with the reciprocal, a difference of reals is a real.
  So the deviation is a real `d` and the variance is a real `v`, a sum of squares times `1/2048`, hence `v ≥ 0`.
  For such `d` and `v` the two last steps agree:
    * `v = 0`: the test `v > 0` fails and the factor is `1`; `√0 = 0`, the test `√v = 0` holds and the divisor is `1`;
      `d · 1 = d / 1`.
    * `v > 0`: the factor is `(√v)⁻¹`; `√v > 0` is not zero, the divisor is `√v`, and a quotient by a nonzero real is
      the product with its inverse: `d · (√v)⁻¹ = d / √v`.
-/
import proofs.«135367_g26749056319877_feedfinal_537_3_alg».proof.Proof.ZScore

noncomputable section

namespace Cert.ZScore

open Idealize.ShloMosaic

/-- A finite sum of coerced reals is the coerced sum. -/
theorem coe_sum {ι : Type} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The quotient of a finite sum of reals by a nonzero real is the real sum times the reciprocal. -/
theorem div_sum_coe {ι : Type} [Fintype ι] (g : ι → ℝ) {y : ℝ} (hy : y ≠ 0) :
    Ideal.div (∑ i, ((g i : ℝ) : EReal)) (y : EReal) = (((∑ i, g i) * (1 / y) : ℝ) : EReal) := by
  rw [Ideal.div_coe hy, coe_sum, ← EReal.coe_mul]

/-- The channel mean of a real recording, as a real. -/
theorem chanMean_coe (f : Slab) (g : Fin 128 → Fin 2048 → ℝ) (hg : ∀ c t, f c t = ((g c t : ℝ) : EReal))
    (t : Fin 2048) : chanMean f t = (((∑ c, g c t) * (1 / 128) : ℝ) : EReal) := by
  unfold chanMean
  rw [w128_eq, Finset.sum_congr rfl (fun c _ => hg c t)]
  exact div_sum_coe (fun c => g c t) (by norm_num)

/-- The re-referenced sample of a real recording, as a real. -/
theorem centered_coe (f : Slab) (g : Fin 128 → Fin 2048 → ℝ) (hg : ∀ c t, f c t = ((g c t : ℝ) : EReal))
    (c : Fin 128) (t : Fin 2048) :
    centered f c t = ((g c t - (∑ c', g c' t) * (1 / 128) : ℝ) : EReal) := by
  unfold centered
  rw [hg c t, chanMean_coe f g hg t, ← EReal.coe_sub]

/-- Every re-referenced sample of a real recording is a real. -/
theorem centered_real (f : Slab) (hf : ∀ c t, ∃ r : ℝ, f c t = (r : EReal)) (c : Fin 128) (t : Fin 2048) :
    ∃ r : ℝ, centered f c t = (r : EReal) := by
  choose g hg using hf
  exact ⟨_, centered_coe f g hg c t⟩

/-- The mean over time of a re-referenced channel, as a real, from real witnesses of the re-referenced samples. -/
theorem timeMean_coe (f : Slab) (c : Fin 128) (k : Fin 2048 → ℝ) (hk : ∀ t, centered f c t = ((k t : ℝ) : EReal)) :
    timeMean f c = (((∑ t, k t) * (1 / 2048) : ℝ) : EReal) := by
  unfold timeMean
  rw [w2048_eq, Finset.sum_congr rfl (fun t _ => hk t)]
  exact div_sum_coe k (by norm_num)

/-- Every deviation of a real recording is a real. -/
theorem dev_real (f : Slab) (hf : ∀ c t, ∃ r : ℝ, f c t = (r : EReal)) (c : Fin 128) (t : Fin 2048) :
    ∃ r : ℝ, dev f c t = (r : EReal) := by
  choose k hk using fun t => centered_real f hf c t
  refine ⟨k t - (∑ t', k t') * (1 / 2048), ?_⟩
  unfold dev
  rw [hk t, timeMean_coe f c k hk, ← EReal.coe_sub]

/-- The variance of a real recording is a nonnegative real: a sum of squares times `1/2048`. -/
theorem variance_real (f : Slab) (hf : ∀ c t, ∃ r : ℝ, f c t = (r : EReal)) (c : Fin 128) :
    ∃ v : ℝ, 0 ≤ v ∧ variance f c = (v : EReal) := by
  choose d hd using fun t => dev_real f hf c t
  refine ⟨(∑ t, d t * d t) * (1 / 2048), ?_, ?_⟩
  · exact mul_nonneg (Finset.sum_nonneg fun t _ => mul_self_nonneg (d t)) (by norm_num)
  · unfold variance
    rw [w2048_eq, Finset.sum_congr rfl (fun t _ => by rw [hd t, ← EReal.coe_mul])]
    exact div_sum_coe (fun t => d t * d t) (by norm_num)

/-- At zero variance the factor is one. -/
theorem kerScale_zero : kerScale ((0 : ℝ) : EReal) = 1 := by
  unfold kerScale Scalar.select
  rw [w0_eq, w1_eq, EReal.coe_zero]
  simp [Ideal.cmp]

/-- At zero variance the divisor is one. -/
theorem refScale_zero : refScale ((0 : ℝ) : EReal) = 1 := by
  unfold refScale Scalar.select
  rw [w0_eq, w1_eq, Ideal.sqrt_coe]
  simp [Ideal.cmp]

/-- At positive variance the factor is the inverse square root. -/
theorem kerScale_pos {v : ℝ} (hv : 0 < v) : kerScale (v : EReal) = (((Real.sqrt v)⁻¹ : ℝ) : EReal) := by
  unfold kerScale Scalar.select
  rw [w0_eq, Ideal.rsqrt_coe, if_neg (not_lt.mpr hv.le), if_neg hv.ne']
  have h : (0 : EReal) < (v : EReal) := by exact_mod_cast hv
  simp [Ideal.cmp, h]

/-- At positive variance the divisor is the square root. -/
theorem refScale_pos {v : ℝ} (hv : 0 < v) : refScale (v : EReal) = ((Real.sqrt v : ℝ) : EReal) := by
  unfold refScale Scalar.select
  rw [w0_eq, Ideal.sqrt_coe, if_neg (not_lt.mpr hv.le)]
  have h : ((Real.sqrt v : ℝ) : EReal) ≠ 0 := by exact_mod_cast (Real.sqrt_pos.mpr hv).ne'
  simp [Ideal.cmp, h]

/-- The scalar law: for a real `d` and a real `v ≥ 0`, the product with the factor is the quotient by the divisor. -/
theorem scalar_law (d v : ℝ) (hv : 0 ≤ v) :
    (d : EReal) * kerScale (v : EReal) = Ideal.div (d : EReal) (refScale (v : EReal)) := by
  rcases hv.eq_or_lt with h0 | hpos
  · subst h0
    rw [kerScale_zero, refScale_zero, ← EReal.coe_one, Ideal.div_coe one_ne_zero, one_div, inv_one]
  · rw [kerScale_pos hpos, refScale_pos hpos, Ideal.div_coe (Real.sqrt_pos.mpr hpos).ne', one_div]

/-- On a real recording the two spellings of the z-score agree. -/
theorem kerOut_eq_refOut (f : Slab) (hf : ∀ c t, ∃ r : ℝ, f c t = (r : EReal)) (c : Fin 128) (t : Fin 2048) :
    kerOut f c t = refOut f c t := by
  obtain ⟨d, hd⟩ := dev_real f hf c t
  obtain ⟨v, hv, hvar⟩ := variance_real f hf c
  unfold kerOut refOut
  rw [hd, hvar]
  exact scalar_law d v hv

end Cert.ZScore

end
-- ==== Proof.FiniteInputs.lean ====
/-
  The finiteness precondition, read back: every entry of the input is a real.

  The printed predicate is `all (|x| < +inf)`: the absolute value of each entry, compared with the word of `+inf`, and the
  conjunction of all those tests over the three axes. The conjunction being one, each test is one, so `max x (-x) < ⊤` at
  every index. Neither `⊤` (`max ⊤ ⊥ = ⊤`) nor `⊥` (`max ⊥ ⊤ = ⊤`) passes that test: the entry is a real.
-/
import proofs.«135367_g26749056319877_feedfinal_537_3_alg».proof.Pre_finite_inputs
import proofs.«135367_g26749056319877_feedfinal_537_3_alg».proof.Proof.Gen.Pre_finite_inputs
import Idealize.ShloMosaic.Lib.ReduceAll
import Idealize.ShloMosaic.PureOps.Ideal.Laws
import Idealize.ShloMosaic.Lib.ValueIdx

noncomputable section

namespace Cert.FiniteInputs

open Idealize.ShloMosaic Idealize.ShloMosaic.ValueIdx
open Cert.Pre_finite_inputs Cert.Pre_finite_inputs.Gen

/-- The rank-zero shape has one index. -/
instance : Subsingleton S_.Idx := ⟨fun a b => funext fun d => d.elim0⟩

/-- The word `0x7F800000` denotes `+inf`. -/
theorem inf_word : Ideal.ofBits .f32 0x7F800000#32 = (⊤ : EReal) := by
  simp [Ideal.ofBits, Ideal.ieee]

/-- An extended real whose absolute value is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the finiteness precondition every entry of the input is a real. -/
theorem real_of_pre (X : FVec Ideal Cert.Pre_finite_inputs.S256x128x2048 .f32)
    (h : Cert.Pre_finite_inputs.fn (F := Ideal) X = fun _ => 1#1) (i : Cert.Pre_finite_inputs.S256x128x2048.Idx) :
    ∃ r : ℝ, X i = (r : EReal) := by
  have h0 := congrFun h ValueIdx.ix0
  dsimp only [Cert.Pre_finite_inputs.fn] at h0
  have hi := Host.reduce_andi_all _ _ _ _ _ h0 i
  rw [cmpf_apply, Ideal.cmpf_def] at hi
  have hcmp : Ideal.cmp .olt (max (X i) (-(X i))) (Ideal.ofBits .f32 0x7F800000#32) = 1#1 := hi
  rw [inf_word] at hcmp
  have hlt : max (X i) (-(X i)) < ⊤ := by
    by_contra hn
    have h0' : Ideal.cmp .olt (max (X i) (-(X i))) (⊤ : EReal) = 0#1 := by
      show BitVec.ofBool (decide (max (X i) (-(X i)) < (⊤ : EReal))) = 0#1
      rw [decide_eq_false hn]; rfl
    rw [h0'] at hcmp
    exact absurd hcmp (by decide)
  exact real_of_abs_lt_top (X i) hlt

end Cert.FiniteInputs

end
-- ==== Proof.ZBlock.lean ====
/-
  One block of the kernel's output, index by index, on the extended reals.

  A block is four recordings `P b c t` (4 × 128 channels × 2048 samples). The body sums over the channels, divides by 128
  and subtracts (each time sample's channel mean); sums the result over time, divides by 2048 and subtracts (each
  channel's mean over time); sums the squares over time and divides by 2048 (each channel's variance); and multiplies
  the deviation by `1/√variance` where the variance is positive and by `1` elsewhere. Read at `(b, c, t)`, every lane
  sum is the finite sum over its axis, each kept-dimension broadcast reads the one entry of its row or column, and
  the rest is pointwise: the block at `(b, c, t)` is the specification's `kerOut` of recording `b` at `(c, t)`.
-/
import proofs.«135367_g26749056319877_feedfinal_537_3_alg».proof.Proof.Gen.KernelIdeal.Value
import proofs.«135367_g26749056319877_feedfinal_537_3_alg».proof.Proof.ZScore
import Idealize.ShloMosaic.Lib.Pipeline.Value
import Idealize.ShloMosaic.Lib.ValueIdx
import Idealize.ShloMosaic.PureOps.Ideal.Laws

noncomputable section

namespace Cert.KernelIdeal.ZBlock

open Cert.KernelIdeal Cert.KernelIdeal.Gen Idealize.ShloMosaic Idealize.ShloMosaic.ValueIdx

/-! ## Lane sums over one axis -/

/-- A sum over the channel axis of a block, at `(b, t)`, is the sum over the 128 channels. -/
theorem sum_channels (P : FVec Ideal S4x128x2048 .f32) (h : S4x128x2048.Reduces [1] S4x2048) (hφ : FKind.Formats .f32)
    (hacc : (0x00000000#32 : BitVec 32) = FKind.add.neutral .f32 hφ) (b : Fin 4) (t : Fin 2048) :
    multiReduction .add [1] S4x2048 P 0x00000000#32 h hφ hacc (ix2 b t) = ∑ c : Fin 128, P (ix3 b c t) := by
  refine (Ideal.multiReduction_add_single P _ h hφ hacc (ix2 b t)).trans ?_
  exact Finset.sum_congr rfl fun k _ => congrArg P (funext fun a => by
    match a with | ⟨0, _⟩ => rfl | ⟨1, _⟩ => rfl | ⟨2, _⟩ => rfl)

/-- A sum over the time axis of a block, at `(b, c)`, is the sum over the 2048 samples. -/
theorem sum_time (P : FVec Ideal S4x128x2048 .f32) (h : S4x128x2048.Reduces [2] S4x128) (hφ : FKind.Formats .f32)
    (hacc : (0x00000000#32 : BitVec 32) = FKind.add.neutral .f32 hφ) (b : Fin 4) (c : Fin 128) :
    multiReduction .add [2] S4x128 P 0x00000000#32 h hφ hacc (ix2 b c) = ∑ t : Fin 2048, P (ix3 b c t) := by
  refine (Ideal.multiReduction_add_single P _ h hφ hacc (ix2 b c)).trans ?_
  exact Finset.sum_congr rfl fun k _ => congrArg P (funext fun a => by
    match a with | ⟨0, _⟩ => rfl | ⟨1, _⟩ => rfl | ⟨2, _⟩ => rfl)

/-! ## Kept-dimension broadcasts read at an index -/

/-- A per-`(b, t)` value, divided by a scalar, kept as a unit channel axis and broadcast over the channels, read at
    `(b, c, t)`: the value at `(b, t)` over the scalar. -/
theorem bcast_over_channels (Q : FVec Ideal S4x2048 .f32) (k : Ideal .f32)
    (h1 : S4x2048.ShapeCasts S4x1x2048) (h2 : S4x1x2048.Broadcasts S4x128x2048) (b : Fin 4) (c : Fin 128) (t : Fin 2048) :
    broadcastTo S4x128x2048 (divf (shapeCast S4x1x2048 Q h1) (broadcast S4x1x2048 k)) h2 (ix3 b c t)
      = Ideal.div (Q (ix2 b t)) k := by
  refine (broadcastTo_apply _ h2 (ix3 b c t) (ix3 b (0 : Fin 1) t) (fun a => by
    match a with
    | ⟨0, _⟩ => show b.val = (if (4 : Nat) = 1 then 0 else b.val); rw [if_neg (by decide)]
    | ⟨1, _⟩ => show 0 = (if (1 : Nat) = 1 then 0 else c.val); rw [if_pos rfl]
    | ⟨2, _⟩ => show t.val = (if (2048 : Nat) = 1 then 0 else t.val); rw [if_neg (by decide)])).trans ?_
  show Ideal.div (shapeCast S4x1x2048 Q h1 (ix3 b (0 : Fin 1) t)) k = _
  refine congrArg (fun z => Ideal.div z k) ?_
  exact shapeCast_apply Q h1 (ix3 b (0 : Fin 1) t) (ix2 b t) (by
    rw [Shape.rowMajor_val_two, Shape.rowMajor_val_three]
    show b.val * 2048 + t.val = (b.val * 1 + 0) * 2048 + t.val; omega)

/-- A per-`(b, c)` value, divided by a scalar, kept as a unit time axis and broadcast over time, read at `(b, c, t)`:
    the value at `(b, c)` over the scalar. -/
theorem bcast_over_time (Q : FVec Ideal S4x128 .f32) (k : Ideal .f32)
    (h1 : S4x128.ShapeCasts S4x128x1) (h2 : S4x128x1.Broadcasts S4x128x2048) (b : Fin 4) (c : Fin 128) (t : Fin 2048) :
    broadcastTo S4x128x2048 (divf (shapeCast S4x128x1 Q h1) (broadcast S4x128x1 k)) h2 (ix3 b c t)
      = Ideal.div (Q (ix2 b c)) k := by
  refine (broadcastTo_apply _ h2 (ix3 b c t) (ix3 b c (0 : Fin 1)) (fun a => by
    match a with
    | ⟨0, _⟩ => show b.val = (if (4 : Nat) = 1 then 0 else b.val); rw [if_neg (by decide)]
    | ⟨1, _⟩ => show c.val = (if (128 : Nat) = 1 then 0 else c.val); rw [if_neg (by decide)]
    | ⟨2, _⟩ => show 0 = (if (1 : Nat) = 1 then 0 else t.val); rw [if_pos rfl])).trans ?_
  show Ideal.div (shapeCast S4x128x1 Q h1 (ix3 b c (0 : Fin 1))) k = _
  refine congrArg (fun z => Ideal.div z k) ?_
  exact shapeCast_apply Q h1 (ix3 b c (0 : Fin 1)) (ix2 b c) (by
    rw [Shape.rowMajor_val_two, Shape.rowMajor_val_three]
    show b.val * 128 + c.val = (b.val * 128 + c.val) * 1 + 0; omega)

/-! ## The body's stages, and each as the specification's -/

/-- The recording `b` of a block. -/
abbrev rec (P : Vec Ideal S4x128x2048 .f32) (b : Fin 4) : ZScore.Slab := fun c t => P (ix3 b c t)

/-- The block's channel sums. -/
abbrev chanSum (P : Vec Ideal S4x128x2048 .f32) : FVec Ideal S4x2048 .f32 :=
  multiReduction .add [1] S4x2048 P 0x00000000#32 reduces_S4x128x2048_S4x2048 (.inl rfl) rfl
/-- The block re-referenced to the channel mean. -/
abbrev cent (P : Vec Ideal S4x128x2048 .f32) : FVec Ideal S4x128x2048 .f32 :=
  subf P (broadcastTo S4x128x2048 (divf (shapeCast S4x1x2048 (chanSum P) shapeCasts_S4x2048_S4x1x2048)
    (broadcast S4x1x2048 (Scalar.ofBits .f32 0x43000000#32))) broadcasts_S4x1x2048_S4x128x2048)
/-- Its sums over time. -/
abbrev timeSum (P : Vec Ideal S4x128x2048 .f32) : FVec Ideal S4x128 .f32 :=
  multiReduction .add [2] S4x128 (cent P) 0x00000000#32 reduces_S4x128x2048_S4x128 (.inl rfl) rfl
/-- The deviations from each channel's mean over time. -/
abbrev devB (P : Vec Ideal S4x128x2048 .f32) : FVec Ideal S4x128x2048 .f32 :=
  subf (cent P) (broadcastTo S4x128x2048 (divf (shapeCast S4x128x1 (timeSum P) shapeCasts_S4x128_S4x128x1)
    (broadcast S4x128x1 (Scalar.ofBits .f32 0x45000000#32))) broadcasts_S4x128x1_S4x128x2048)
/-- The sums over time of the squared deviations. -/
abbrev sqSum (P : Vec Ideal S4x128x2048 .f32) : FVec Ideal S4x128 .f32 :=
  multiReduction .add [2] S4x128 (mulf (devB P) (devB P)) 0x00000000#32 reduces_S4x128x2048_S4x128 (.inl rfl) rfl

theorem chanSum_apply (P : Vec Ideal S4x128x2048 .f32) (b : Fin 4) (t : Fin 2048) :
    chanSum P (ix2 b t) = ∑ c : Fin 128, P (ix3 b c t) := sum_channels P _ _ _ b t

theorem cent_apply (P : Vec Ideal S4x128x2048 .f32) (b : Fin 4) (c : Fin 128) (t : Fin 2048) :
    cent P (ix3 b c t) = ZScore.centered (rec P b) c t := by
  show P (ix3 b c t) - _ = _
  rw [bcast_over_channels, chanSum_apply]
  rfl

theorem timeSum_apply (P : Vec Ideal S4x128x2048 .f32) (b : Fin 4) (c : Fin 128) :
    timeSum P (ix2 b c) = ∑ t : Fin 2048, ZScore.centered (rec P b) c t := by
  refine (sum_time (cent P) _ _ _ b c).trans ?_
  exact Finset.sum_congr rfl fun t _ => cent_apply P b c t

theorem devB_apply (P : Vec Ideal S4x128x2048 .f32) (b : Fin 4) (c : Fin 128) (t : Fin 2048) :
    devB P (ix3 b c t) = ZScore.dev (rec P b) c t := by
  show cent P (ix3 b c t) - _ = _
  rw [bcast_over_time, timeSum_apply, cent_apply]
  rfl

theorem sqSum_apply (P : Vec Ideal S4x128x2048 .f32) (b : Fin 4) (c : Fin 128) :
    sqSum P (ix2 b c) = ∑ t : Fin 2048, ZScore.dev (rec P b) c t * ZScore.dev (rec P b) c t := by
  refine (sum_time (mulf (devB P) (devB P)) _ _ _ b c).trans ?_
  exact Finset.sum_congr rfl fun t _ => by
    show devB P (ix3 b c t) * devB P (ix3 b c t) = _
    rw [devB_apply]

/-! ## The block -/

/-- The block the body leaves, at `(b, c, t)`, is the z-score of recording `b` at `(c, t)`. -/
theorem block_apply (P : Vec Ideal S4x128x2048 .f32) (b : Fin 4) (c : Fin 128) (t : Fin 2048) :
    Value.E1 (F := Ideal) P (ix3 b c t) = ZScore.kerOut (rec P b) c t := by
  have e0 : Value.ix1_0 (ix3 b c t) = ix3 b c t := funext fun a => by
    match a with | ⟨0, _⟩ => rfl | ⟨1, _⟩ => rfl | ⟨2, _⟩ => rfl
  have e1 : Value.ix1_1 (ix3 b c t) = ix2 b t := funext fun a => by
    match a with | ⟨0, _⟩ => rfl | ⟨1, _⟩ => rfl
  have e2 : Value.ix1_2 (ix3 b c t) = ix2 b c := funext fun a => by
    match a with | ⟨0, _⟩ => rfl | ⟨1, _⟩ => rfl
  have e3 : Value.ix1_3 (ix3 b c t) = ix2 b c := funext fun a => by
    match a with | ⟨0, _⟩ => rfl | ⟨1, _⟩ => rfl
  have e4 : Value.ix1_4 (ix3 b c t) = ix2 b c := funext fun a => by
    match a with | ⟨0, _⟩ => rfl | ⟨1, _⟩ => rfl
  show (P (Value.ix1_0 (ix3 b c t)) - Ideal.div (chanSum P (Value.ix1_1 (ix3 b c t))) ZScore.w128
        - Ideal.div (timeSum P (Value.ix1_2 (ix3 b c t))) ZScore.w2048)
      * Scalar.select (Ideal.cmp .ogt (Ideal.div (sqSum P (Value.ix1_3 (ix3 b c t))) ZScore.w2048) ZScore.w0)
          (Ideal.rsqrt (Ideal.div (sqSum P (Value.ix1_4 (ix3 b c t))) ZScore.w2048)) ZScore.w1 = _
  rw [e0, e1, e2, e3, e4, sqSum_apply, timeSum_apply, chanSum_apply]
  rfl

end Cert.KernelIdeal.ZBlock

end
-- ==== Proof.ZArray.lean ====
/-
  The kernel's output array after the run, on the extended reals: the z-score of the input, recording by recording.

  The grid has 64 points; point `p` stages recordings `4p … 4p+3` of the input (all channels, all samples), and writes
  the block the body leaves back over the same recordings of the output. An entry `(b, c, s)` of block `p` sits at
  `(4p + b, c, s)` of either array, so the input block's recording `b` is recording `4p + b` of the input, and by the
  block lemma what point `p` writes back is the block of the z-scored input. Every recording `n` lies in the block of
  point `n / 4`, so the blocks cover the array and the array ends as the z-scored input.
-/
import proofs.«135367_g26749056319877_feedfinal_537_3_alg».proof.Proof.ZBlock

noncomputable section

namespace Cert.KernelIdeal.ZArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the grid: both windows' block index at point `p` is `(p, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

theorem N_eq : cfg0.N = 64 := N_0

/-- Recording `b` of block `p` is recording `4p + b` of the batch. -/
def recOf (t : Fin cfg0.N) (b : Fin 4) : Fin 256 :=
  ⟨t.val * 4 + b.val, by have h1 := t.isLt; have h2 := b.isLt; have h3 := N_eq; omega⟩

/-- Where entry `(b, ch, s)` of the input's block at point `p` sits in the input. -/
theorem emb_in (t : Fin cfg0.N) (b : Fin 4) (ch : Fin 128) (s : Fin 2048) :
    ((cfg0.win 0).blk t).view.emb (ix3 b ch s) = ix3 (recOf t b) ch s := by
  obtain ⟨e0, e1, e2, -, -, -⟩ := idx_facts t
  funext a; apply Fin.ext
  match a with
  | ⟨0, _⟩ => show win0_0.index t (0 : Fin 3) * 4 + 1 * b.val = t.val * 4 + b.val; omega
  | ⟨1, _⟩ => show win0_0.index t (1 : Fin 3) * 128 + 1 * ch.val = ch.val; omega
  | ⟨2, _⟩ => show win0_0.index t (2 : Fin 3) * 2048 + 1 * s.val = s.val; omega

/-- Where entry `(b, ch, s)` of the output's block at point `p` sits in the output. -/
theorem emb_out (t : Fin cfg0.N) (b : Fin 4) (ch : Fin 128) (s : Fin 2048) :
    ((cfg0.win 1).blk t).view.emb (ix3 b ch s) = ix3 (recOf t b) ch s := by
  obtain ⟨-, -, -, e0, e1, e2⟩ := idx_facts t
  funext a; apply Fin.ext
  match a with
  | ⟨0, _⟩ => show win0_1.index t (0 : Fin 3) * 4 + 1 * b.val = t.val * 4 + b.val; omega
  | ⟨1, _⟩ => show win0_1.index t (1 : Fin 3) * 128 + 1 * ch.val = ch.val; omega
  | ⟨2, _⟩ => show win0_1.index t (2 : Fin 3) * 2048 + 1 * s.val = s.val; omega

/-- What point `p` writes back is block `p` of the z-scored input. -/
theorem flushed_eq (c : Dev nD) (t : Fin cfg0.N) :
    (dats m 0 c).flushed 1 t
      = ((cfg0.win 1).blk t).view.read (Elt Ideal) (ZScore.zscore (V m c main_arg0)) := by
  rw [Value.flushed1]
  unfold out0_1
  simp only [View.ld_unit_zero (S := S4x128x2048) hz]
  refine funext fun (j : S4x128x2048.Idx) => ?_
  obtain ⟨b, ch, s, rfl⟩ : ∃ (b : Fin 4) (ch : Fin 128) (s : Fin 2048), j = ix3 b ch s :=
    ⟨j 0, j 1, j 2, eq_ix3 j⟩
  refine (Value.canon1_eq (F := Ideal) (iblk m c 0 t) (ix3 b ch s)).trans ?_
  refine (ZBlock.block_apply (iblk m c 0 t) b ch s).trans ?_
  show _ = ZScore.zscore (V m c main_arg0) (((cfg0.win 1).blk t).view.emb (ix3 b ch s))
  rw [emb_out, ZScore.zscore_ix3]
  refine congrArg (fun f => ZScore.kerOut f ch s) ?_
  funext c' s'
  show V m c main_arg0 (((cfg0.win 0).blk t).view.emb (ix3 b c' s')) = V m c main_arg0 (ix3 (recOf t b) c' s')
  rw [emb_in]

/-- An entry of the output lies in point `p`'s block exactly when each coordinate lies in the block's range. -/
theorem mem_blk (t : Fin cfg0.N) (i : S256x128x2048.Idx) :
    i ∈ ((cfg0.win 1).blk t).view.set ↔ ∀ a : Fin 3, win0_1.index t a * S4x128x2048.size a ≤ (i a).val
      ∧ (i a).val < win0_1.index t a * S4x128x2048.size a + S4x128x2048.size a := by
  show i ∈ ((View.whole main_v0).slice (win0_1.rect t)).set ↔ _
  rw [View.set_slice_whole, Rect.mem_set_unit]
  exact Iff.rfl

/-- Every entry of the output lies in some point's block: recording `n` in the block of point `n / 4`. -/
theorem cover (i : S256x128x2048.Idx) :
    ∃ t : Fin cfg0.N, (cfg0.win 1).flush t = true ∧ i ∈ ((cfg0.win 1).blk t).view.set := by
  have hi0 : (i 0).val < 256 := (i 0).isLt
  have hi1 : (i 1).val < 128 := (i 1).isLt
  have hi2 : (i 2).val < 2048 := (i 2).isLt
  have hN := N_eq
  obtain ⟨t, ht⟩ : ∃ t : Fin cfg0.N, t.val = (i 0).val / 4 := ⟨⟨(i 0).val / 4, by omega⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 2048 ≤ (i 2).val ∧ (i 2).val < win0_1.index t (2 : Fin 3) * 2048 + 2048
    omega

/-- The output array after the run is the z-scored input. -/
theorem final (c : Dev nD) :
    (dats m 0 c).arrAt 1 cfg0.N = ZScore.zscore (m ((c : Thread nD τ).loc main_arg0)) :=
  (dats m 0 c).arrAt_eq_of_cover 1 (ZScore.zscore (V m c main_arg0)) (fun t _ => flushed_eq m c t) cover

/-- Every weakly fair execution of the kernel read on the extended reals terminates with the output the z-scored input and the input
    unchanged. -/
theorem run : θ_run defs (onTc (τ := τ) (main (F := Ideal))) ⟨m, fun _ => 0, ρ⟩ fun r => ∀ c : Dev nD,
      r.2.mem ((c : Thread nD τ).loc main_v0) = ZScore.zscore (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ZArray

end
-- ==== Proof.RefRun.lean ====
/-
  The reference program's run, read back as one function of its argument.

  The reference is a straight line of 49 array operations once its four outlined functions are unfolded at their
  calls. In the order they run: the sum over the channel axis, divided by 128 and subtracted (the recording
  re-referenced to the channel mean); the sum over the time axis, divided by 2048 (each channel's mean over time);
  inside the standard-deviation function the same mean once more, the deviation from it, its square, the sum of the
  squares over time divided by `2048 - float 0`, kept where that divisor is positive (a not-a-number word elsewhere),
  and its square root; then the comparison of that root with zero, the replacement of a zero root by one, the deviation
  again, and the quotient of the deviation by the replaced root.

  `out` is that composition, stage by stage; `run` states that every execution of the program ends with the result
  buffer holding `out` of the argument buffer's launch contents, the argument unchanged.
-/
import proofs.«135367_g26749056319877_feedfinal_537_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The stages -/

/-- The mean over the 128 channels at each (recording, time): the channel sum from zero, as a `256×1×2048` array,
    divided by the word of `128.0`. -/
def chanMean (x : FVec F S256x128x2048 .f32) : FVec F S256x1x2048 .f32 :=
  Host.divf
    (broadcastInDim S256x1x2048 ![0, 2] bcast_S256x2048_S256x1x2048_0_2
      (Host.reduceAdd x (constant S_ .f32 0x00000000#32) reducesTo_S256x128x2048_S256x2048_d1 h_S_))
    (broadcastInDim S256x1x2048 ![] bcast_S_S256x1x2048 (constant S_ .f32 0x43000000#32))

/-- The recording minus its channel mean. -/
def centered (x : FVec F S256x128x2048 .f32) : FVec F S256x128x2048 .f32 :=
  subf x (broadcastInDim S256x128x2048 ![0, 1, 2] bcast_S256x1x2048_S256x128x2048_0_1_2 (chanMean x))

/-- The mean over the 2048 time samples of each (recording, channel) of an array `y`: the time sum from zero, as a
    `256×128×1` array, divided by the word of `2048.0`. -/
def timeMean (y : FVec F S256x128x2048 .f32) : FVec F S256x128x1 .f32 :=
  Host.divf
    (broadcastInDim S256x128x1 ![0, 1] bcast_S256x128_S256x128x1_0_1
      (Host.reduceAdd y (constant S_ .f32 0x00000000#32) reducesTo_S256x128x2048_S256x128_d2 h_S_))
    (broadcastInDim S256x128x1 ![] bcast_S_S256x128x1 (constant S_ .f32 0x45000000#32))

/-- An array minus its mean over time. -/
def dev (y : FVec F S256x128x2048 .f32) : FVec F S256x128x2048 .f32 :=
  subf y (broadcastInDim S256x128x2048 ![0, 1, 2] bcast_S256x128x1_S256x128x2048_0_1_2 (timeMean y))

/-- The variance's divisor: the word of `2048.0` minus the integer correction `0` converted to a float. -/
def count : FVec F S_ .f32 :=
  subf (constant S_ .f32 0x45000000#32) (sitofp .f32 (constantI S_ 32 0#32))

/-- The variance over time of an array `y`: the sum over time of the squared deviations divided by `count`, kept
    where `count` is positive and a not-a-number word elsewhere. -/
def variance (y : FVec F S256x128x2048 .f32) : FVec F S256x128x1 .f32 :=
  select
    (broadcastInDim S256x128x1 ![] bcast_S_S256x128x1 (cmpf .ogt (count (F := F)) (constant S_ .f32 0x00000000#32)))
    (Host.divf
      (broadcastInDim S256x128x1 ![0, 1] bcast_S256x128_S256x128x1_0_1
        (Host.reduceAdd (mulf (dev y) (dev y)) (constant S_ .f32 0x00000000#32) reducesTo_S256x128x2048_S256x128_d2 h_S_))
      (broadcastInDim S256x128x1 ![] bcast_S_S256x128x1 count))
    (broadcastInDim S256x128x1 ![] bcast_S_S256x128x1 (id (constant S_ .f32 0x7FC00000#32)))

/-- The standard deviation over time. -/
def std (y : FVec F S256x128x2048 .f32) : FVec F S256x128x1 .f32 := Host.sqrt (variance y)

/-- The divisor of the result: the standard deviation, replaced by the word of `1.0` where it equals zero. -/
def scale (y : FVec F S256x128x2048 .f32) : FVec F S256x128x1 .f32 :=
  select
    (cmpf .oeq (std y) (broadcastInDim S256x128x1 ![] bcast_S_S256x128x1 (constant S_ .f32 0x00000000#32)))
    (broadcastInDim S256x128x1 ![] bcast_S_S256x128x1 (constant S_ .f32 0x3F800000#32))
    (std y)

/-- the reference's result as one function of its argument: the 49 operations composed -/
def out (x : FVec F S256x128x2048 .f32) : FVec F S256x128x2048 .f32 :=
  Host.divf (dev (centered x))
    (broadcastInDim S256x128x2048 ![0, 1, 2] bcast_S256x128x1_S256x128x2048_0_1_2 (scale (centered x)))

/-! ## The program as a list of operations -/

/-- The 49 operations in the order they run: fifteen of the entry function, the standard-deviation function's
    (twenty of the variance function, three of its selection, the square root), five more of the entry function, the
    second selection, and the entry function's last four. -/
abbrev ops : List (HloOp τ sig (Elt F)) :=
  [ nullary main_cst (constant S_ .f32 0x00000000#32),
    binary main_arg0 main_cst main_v0 (fun x v => Host.reduceAdd x v reducesTo_S256x128x2048_S256x2048_d1 h_S_),
    unary main_v0 main_v1 (broadcastInDim S256x1x2048 ![0, 2] bcast_S256x2048_S256x1x2048_0_2),
    nullary main_cst_0 (constant S_ .f32 0x43000000#32),
    unary main_cst_0 main_v2 (broadcastInDim S256x1x2048 ![] bcast_S_S256x1x2048),
    binary main_v1 main_v2 main_v3 Host.divf,
    unary main_v3 main_v4 (broadcastInDim S256x128x2048 ![0, 1, 2] bcast_S256x1x2048_S256x128x2048_0_1_2),
    binary main_arg0 main_v4 main_v5 subf,
    nullary main_cst_1 (constant S_ .f32 0x00000000#32),
    binary main_v5 main_cst_1 main_v6 (fun x v => Host.reduceAdd x v reducesTo_S256x128x2048_S256x128_d2 h_S_),
    unary main_v6 main_v7 (broadcastInDim S256x128x1 ![0, 1] bcast_S256x128_S256x128x1_0_1),
    nullary main_cst_2 (constant S_ .f32 0x45000000#32),
    unary main_cst_2 main_v8 (broadcastInDim S256x128x1 ![] bcast_S_S256x128x1),
    binary main_v7 main_v8 main_v9 Host.divf,
    nullary main_c (constantI S_ 32 0#32),
    TRef.nullary main_call0.call0.cst (constant S_ .f32 0x00000000#32),
    TRef.binary (.of main_v5) main_call0.call0.cst main_call0.call0.v0 (fun x v => Host.reduceAdd x v reducesTo_S256x128x2048_S256x128_d2 h_S_),
    TRef.unary main_call0.call0.v0 main_call0.call0.v1 (broadcastInDim S256x128x1 ![0, 1] bcast_S256x128_S256x128x1_0_1),
    TRef.nullary main_call0.call0.cst_0 (constant S_ .f32 0x45000000#32),
    TRef.unary main_call0.call0.cst_0 main_call0.call0.v2 (broadcastInDim S256x128x1 ![] bcast_S_S256x128x1),
    TRef.binary main_call0.call0.v1 main_call0.call0.v2 main_call0.call0.v3 Host.divf,
    TRef.unary main_call0.call0.v3 main_call0.call0.v4 (broadcastInDim S256x128x2048 ![0, 1, 2] bcast_S256x128x1_S256x128x2048_0_1_2),
    TRef.binary (.of main_v5) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x45000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S256x128x2048_S256x128_d2 h_S_),
    TRef.unary main_call0.call0.v9 main_call0.call0.v10 (broadcastInDim S256x128x1 ![0, 1] bcast_S256x128_S256x128x1_0_1),
    TRef.unary main_call0.call0.v8 main_call0.call0.v11 (broadcastInDim S256x128x1 ![] bcast_S_S256x128x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S256x128x1 ![] bcast_S_S256x128x1),
    TRef.ternary main_call0.call0.v13 main_call0.call0.v12 main_call0.call0.call0.v1 main_call0.call0.call0.v2
      (fun p a b => select (broadcastInDim S256x128x1 ![] bcast_S_S256x128x1 p) a b),
    TRef.unary main_call0.call0.call0.v2 main_call0.v1 Host.sqrt,
    nullary main_cst_3 (constant S_ .f32 0x00000000#32),
    unary main_cst_3 main_v11 (broadcastInDim S256x128x1 ![] bcast_S_S256x128x1),
    binary main_v10 main_v11 main_v12 (cmpf .oeq),
    nullary main_cst_4 (constant S_ .f32 0x3F800000#32),
    unary main_cst_4 main_v13 (broadcastInDim S256x128x1 ![] bcast_S_S256x128x1),
    TRef.ternary (.of main_v12) (.of main_v13) (.of main_v10) main_call1.v0 select,
    unary main_v9 main_v15 (broadcastInDim S256x128x2048 ![0, 1, 2] bcast_S256x128x1_S256x128x2048_0_1_2),
    binary main_v5 main_v15 main_v16 subf,
    unary main_v14 main_v17 (broadcastInDim S256x128x2048 ![0, 1, 2] bcast_S256x128x1_S256x128x2048_0_1_2),
    binary main_v16 main_v17 main_v18 Host.divf ]

-- forty-nine binds re-associated: the rewrite under the chain recurses once per statement
set_option maxRecDepth 2048 in
/-- The entry function is that straight line: the outlined functions unfolded at their calls and the buffer records
    at their fields, both sides are one chain of steps once sequencing is re-associated. -/
theorem main_eq (c : Dev nD) : main (F := F) c = seq ops := by
  simp only [main, fn_std.body, fn_var.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., nullary_bufs_sub .., binary_bufs_sub .., unary_bufs_sub .., nullary_bufs_sub ..,
    unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub ..,
    nullary_bufs_sub .., unary_bufs_sub .., binary_bufs_sub .., nullary_bufs_sub .., unary_bufs_sub ..,
    ternary_bufs_sub ..,
    unary_bufs_sub .., binary_bufs_sub .., unary_bufs_sub .., binary_bufs_sub ..⟩

attribute [local irreducible] Host.reduceAdd in
set_option maxRecDepth 8192 in
/-- The result buffer after the 49 operations holds `out` of the argument buffer's contents. -/
theorem after_out (V : Valuation τ sig (Elt F)) :
    after ops V (main_v18 : DevRef τ sig) = out (V (main_arg0 : DevRef τ sig)) := by
  after_results_simp
  rfl

/-- No operation writes the argument buffer. -/
theorem after_arg0 (V : Valuation τ sig (Elt F)) :
    after ops V (main_arg0 : DevRef τ sig) = V (main_arg0 : DevRef τ sig) := by
  after_results_simp

/-- On every device, for any float values, from any memory with zero counters: every weakly fair execution of the
    reference terminates with the result buffer at `out` of the argument's launch contents and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = out (m ((c.tc : Thread nD τ).loc main_arg0))
      ∧ r.2.mem ((c.tc : Thread nD τ).loc main_arg0) = m ((c.tc : Thread nD τ).loc main_arg0) :=
  (θ_run defs _ _).mono (fun _ h c => ⟨(h c main_v18).trans (after_out _), (h c main_arg0).trans (after_arg0 _)⟩)
    (run_seq scopedRefs_eq scopedSems_eq defs main (fun _ => ops) main_eq (fun _ => ops_sub) m ρ)

end Cert.ReferenceIdeal.RefRun

end
-- ==== Proof.RefValue.lean ====
/-
  The reference's result, read at one index, is the z-score of the specification spelt as a quotient.

  Each stage of the composed term `RefRun.out` is read at an index `(b, c, t)` (recording, channel, time):
    * a sum over one axis is the initial value, the zero word, plus the sum over that axis's coordinates;
    * a broadcast reads its operand at the coordinates the broadcast keeps, `0` on the operand's unit axes;
    * the other operations act element by element.
  So the channel mean is `(∑ c, X b c t) / 128`, the re-referenced sample is the sample minus it, the mean over time
  is `(∑ t, ·) / 2048`, and the deviation is the re-referenced sample minus that. The variance's divisor is
  `2048 - 0 = 2048`, which is positive: the guarded quotient is the quotient itself and the not-a-number word is never
  selected. The standard deviation is the square root; the divisor of the result is it, or one where it is zero.
-/
import proofs.«135367_g26749056319877_feedfinal_537_3_alg».proof.Proof.RefRun
import proofs.«135367_g26749056319877_feedfinal_537_3_alg».proof.Proof.ZScore
import Idealize.ShloMosaic.PureOps.Ideal.Laws
import Idealize.ShloMosaic.Lib.ValueIdx
import Idealize.ShloMosaic.Lib.Pipeline.Value
import Idealize.ShloMosaic.Lib.IdealHost

noncomputable section

namespace Cert.ReferenceIdeal.RefValue

open Idealize.ShloMosaic Idealize.ShloMosaic.ValueIdx Cert.ReferenceIdeal Cert.ReferenceIdeal.Gen
open Cert.ZScore (slab w0 w1 w128 w2048)

/-! ## The broadcasts at an index -/

section Broadcasts

variable {α : Type}

/-- A `256×2048` array placed along axes 0 and 2 of `256×1×2048`. -/
theorem bc_chan (x : S256x2048.Idx → α) (b : Fin 256) (u : Fin 1) (t : Fin 2048) :
    broadcastInDim S256x1x2048 ![0, 2] bcast_S256x2048_S256x1x2048_0_2 x (ix3 b u t) = x (ix2 b t) :=
  broadcastInDim_apply _ _ _ _ _ (by intro a; fin_cases a <;> rfl)

/-- A `256×1×2048` array repeated along the channel axis. -/
theorem bc_chan_full (x : S256x1x2048.Idx → α) (b : Fin 256) (c : Fin 128) (t : Fin 2048) :
    broadcastInDim S256x128x2048 ![0, 1, 2] bcast_S256x1x2048_S256x128x2048_0_1_2 x (ix3 b c t) = x (ix3 b (0 : Fin 1) t) :=
  broadcastInDim_apply _ _ _ _ _ (by intro a; fin_cases a <;> rfl)

/-- A `256×128` array placed along axes 0 and 1 of `256×128×1`. -/
theorem bc_time (x : S256x128.Idx → α) (b : Fin 256) (c : Fin 128) (u : Fin 1) :
    broadcastInDim S256x128x1 ![0, 1] bcast_S256x128_S256x128x1_0_1 x (ix3 b c u) = x (ix2 b c) :=
  broadcastInDim_apply _ _ _ _ _ (by intro a; fin_cases a <;> rfl)

/-- A `256×128×1` array repeated along the time axis. -/
theorem bc_time_full (x : S256x128x1.Idx → α) (b : Fin 256) (c : Fin 128) (t : Fin 2048) :
    broadcastInDim S256x128x2048 ![0, 1, 2] bcast_S256x128x1_S256x128x2048_0_1_2 x (ix3 b c t) = x (ix3 b c (0 : Fin 1)) :=
  broadcastInDim_apply _ _ _ _ _ (by intro a; fin_cases a <;> rfl)

end Broadcasts

/-! ## The two sums at an index -/

/-- The sum over the channel axis from the zero word: the sum over the 128 channels. -/
theorem chanSum_apply (X : FVec Ideal S256x128x2048 .f32) (b : Fin 256) (t : Fin 2048) :
    Host.reduceAdd X (constant (F := Ideal) S_ .f32 0x00000000#32) reducesTo_S256x128x2048_S256x2048_d1 h_S_ (ix2 b t)
      = ∑ c : Fin 128, X (ix3 b c t) := by
  have hR : S256x128x2048.Reduces [1] S256x2048 := by decide
  rw [hostReduceAdd_apply, Ideal.hostReduceAdd_single _ hR, constant_apply, Ideal.ofBits_zero_f32, zero_add]
  refine Finset.sum_congr rfl fun k _ => congrArg X ?_
  funext d; fin_cases d <;> rfl

/-- The sum over the time axis from the zero word: the sum over the 2048 time samples. -/
theorem timeSum_apply (Y : FVec Ideal S256x128x2048 .f32) (b : Fin 256) (c : Fin 128) :
    Host.reduceAdd Y (constant (F := Ideal) S_ .f32 0x00000000#32) reducesTo_S256x128x2048_S256x128_d2 h_S_ (ix2 b c)
      = ∑ t : Fin 2048, Y (ix3 b c t) := by
  have hR : S256x128x2048.Reduces [2] S256x128 := by decide
  rw [hostReduceAdd_apply, Ideal.hostReduceAdd_single _ hR, constant_apply, Ideal.ofBits_zero_f32, zero_add]
  refine Finset.sum_congr rfl fun k _ => congrArg Y ?_
  funext d; fin_cases d <;> rfl

/-! ## The stages at an index -/

/-- The channel mean at (recording, time). -/
theorem chanMean_apply (X : FVec Ideal S256x128x2048 .f32) (b : Fin 256) (u : Fin 1) (t : Fin 2048) :
    RefRun.chanMean X (ix3 b u t) = Cert.ZScore.chanMean (slab X b) t := by
  unfold RefRun.chanMean Cert.ZScore.chanMean
  rw [hostDivf_apply, bc_chan, chanSum_apply, broadcastInDim_scalar_apply, constant_apply]
  rfl

/-- The re-referenced sample. -/
theorem centered_apply (X : FVec Ideal S256x128x2048 .f32) (b : Fin 256) (c : Fin 128) (t : Fin 2048) :
    RefRun.centered X (ix3 b c t) = Cert.ZScore.centered (slab X b) c t := by
  unfold RefRun.centered Cert.ZScore.centered
  rw [subf_apply, bc_chan_full, chanMean_apply]
  rfl

/-- The mean over time of any array: its time sum over the word of `2048.0`. -/
theorem timeMean_apply (Y : FVec Ideal S256x128x2048 .f32) (b : Fin 256) (c : Fin 128) (u : Fin 1) :
    RefRun.timeMean Y (ix3 b c u) = Ideal.div (∑ t : Fin 2048, Y (ix3 b c t)) w2048 := by
  unfold RefRun.timeMean
  rw [hostDivf_apply, bc_time, timeSum_apply, broadcastInDim_scalar_apply, constant_apply]

/-- The mean over time of the re-referenced recording. -/
theorem timeMean_centered (X : FVec Ideal S256x128x2048 .f32) (b : Fin 256) (c : Fin 128) (u : Fin 1) :
    RefRun.timeMean (RefRun.centered X) (ix3 b c u) = Cert.ZScore.timeMean (slab X b) c := by
  rw [timeMean_apply]
  unfold Cert.ZScore.timeMean
  exact congrArg (Ideal.div · w2048) (Finset.sum_congr rfl fun t _ => centered_apply X b c t)

/-- The deviation of a re-referenced sample from its channel's mean over time. -/
theorem dev_centered (X : FVec Ideal S256x128x2048 .f32) (b : Fin 256) (c : Fin 128) (t : Fin 2048) :
    RefRun.dev (RefRun.centered X) (ix3 b c t) = Cert.ZScore.dev (slab X b) c t := by
  unfold RefRun.dev Cert.ZScore.dev
  rw [subf_apply, bc_time_full, centered_apply, timeMean_centered]

/-- The variance's divisor is `2048 - 0`, the word of `2048.0`. -/
theorem count_apply (j : S_.Idx) : RefRun.count (F := Ideal) j = w2048 := by
  unfold RefRun.count
  rw [subf_apply, constant_apply, sitofp_apply]
  show w2048 - (((constantI S_ 32 0#32 j).toInt : ℝ) : EReal) = w2048
  simp [constantI]

/-- The divisor is positive: the guard of the variance's quotient holds. -/
theorem count_pos (j : S_.Idx) :
    cmpf .ogt (RefRun.count (F := Ideal)) (constant S_ .f32 0x00000000#32) j = 1#1 := by
  rw [cmpf_apply, count_apply, constant_apply, Ideal.cmpf_def, Ideal.ofBits_zero_f32, Cert.ZScore.w2048_eq]
  have h : (0 : EReal) < ((2048 : ℝ) : EReal) := by exact_mod_cast (by norm_num : (0 : ℝ) < 2048)
  simp [Ideal.cmp, h]

/-- The variance over time of the re-referenced recording: the guarded quotient is the quotient. -/
theorem variance_centered (X : FVec Ideal S256x128x2048 .f32) (b : Fin 256) (c : Fin 128) (u : Fin 1) :
    RefRun.variance (RefRun.centered X) (ix3 b c u) = Cert.ZScore.variance (slab X b) c := by
  unfold RefRun.variance Cert.ZScore.variance
  rw [select_apply, broadcastInDim_scalar_apply, count_pos, select_one, hostDivf_apply, bc_time, timeSum_apply,
    broadcastInDim_scalar_apply, count_apply]
  refine congrArg (Ideal.div · w2048) (Finset.sum_congr rfl fun t _ => ?_)
  rw [mulf_apply, dev_centered]

/-- The divisor of the result: the standard deviation, or one where it is zero. -/
theorem scale_centered (X : FVec Ideal S256x128x2048 .f32) (b : Fin 256) (c : Fin 128) (u : Fin 1) :
    RefRun.scale (RefRun.centered X) (ix3 b c u) = Cert.ZScore.refScale (Cert.ZScore.variance (slab X b) c) := by
  have hs : RefRun.std (RefRun.centered X) (ix3 b c u) = Ideal.sqrt (Cert.ZScore.variance (slab X b) c) := by
    unfold RefRun.std
    exact congrArg Ideal.sqrt (variance_centered X b c u)
  unfold RefRun.scale Cert.ZScore.refScale
  rw [select_apply, cmpf_apply, hs, broadcastInDim_scalar_apply, broadcastInDim_scalar_apply, constant_apply, constant_apply,
    Ideal.cmpf_def]

/-! ## The result -/

/-- The reference's result at (recording, channel, time) is the specification's quotient form. -/
theorem out_eq (X : FVec Ideal Cert.ReferenceIdeal.S256x128x2048 .f32) (b : Fin 256) (c : Fin 128) (t : Fin 2048) :
    Cert.ReferenceIdeal.RefRun.out (F := Ideal) X (ValueIdx.ix3 b c t) = Cert.ZScore.refOut (Cert.ZScore.slab X b) c t := by
  unfold RefRun.out Cert.ZScore.refOut
  rw [hostDivf_apply, dev_centered, bc_time_full, scale_centered]

end Cert.ReferenceIdeal.RefValue

end
-- ==== Proof.lean ====
/-
  The kernel and the reference compute one function: the average-referenced, z-scored EEG batch.

  For each of 256 recordings (128 channels × 2048 samples) both programs subtract each time sample's mean over the
  channels, then each channel's mean over time, and scale by the inverse of the channel's population standard
  deviation, a zero deviation standing for one. The kernel takes four recordings per grid point, sums along lanes, and
  multiplies by `1/√v` where the variance `v` is positive and by `1` elsewhere; the reference sums on the host, takes
  `√v`, replaces a zero by one and divides. On the extended reals, for finite inputs, every stage is a real number, the
  variance is a real `v ≥ 0`, `v > 0` exactly when `√v ≠ 0`, and a quotient by a nonzero real is the product with its
  inverse: the two results are equal entry by entry.

  The pieces: the function itself and the words of its float literals (ZScore); the law between the two spellings of
  the last step, on real inputs (ZScoreLaw); that the precondition makes every input entry a real (FiniteInputs); one
  block of the kernel's output as that function of the block's input (ZBlock) and the whole output array after the
  run (ZArray); the reference's run as one composed term of its 49 host operations (RefRun) and that term read at an
  index (RefValue). The three frames are the programs' runs with the values forgotten; the ideal pass rewrote nothing,
  so there is nothing to preserve.
-/
import proofs.«135367_g26749056319877_feedfinal_537_3_alg».proof.Defs
import proofs.«135367_g26749056319877_feedfinal_537_3_alg».proof.Proof.Gen.Kernel
import proofs.«135367_g26749056319877_feedfinal_537_3_alg».proof.Proof.Gen.Kernel.Skeleton
import proofs.«135367_g26749056319877_feedfinal_537_3_alg».proof.Proof.Gen.Kernel.Launch
import proofs.«135367_g26749056319877_feedfinal_537_3_alg».proof.Proof.Gen.Kernel.Points
import proofs.«135367_g26749056319877_feedfinal_537_3_alg».proof.Proof.Gen.Kernel.Frame
import proofs.«135367_g26749056319877_feedfinal_537_3_alg».proof.Proof.Gen.KernelIdeal
import proofs.«135367_g26749056319877_feedfinal_537_3_alg».proof.Proof.Gen.KernelIdeal.Skeleton
import proofs.«135367_g26749056319877_feedfinal_537_3_alg».proof.Proof.Gen.KernelIdeal.Launch
import proofs.«135367_g26749056319877_feedfinal_537_3_alg».proof.Proof.Gen.KernelIdeal.Points
import proofs.«135367_g26749056319877_feedfinal_537_3_alg».proof.Proof.Gen.KernelIdeal.Frame
import proofs.«135367_g26749056319877_feedfinal_537_3_alg».proof.Proof.Gen.KernelIdeal.Value
import proofs.«135367_g26749056319877_feedfinal_537_3_alg».proof.Proof.Gen.ReferenceIdeal
import proofs.«135367_g26749056319877_feedfinal_537_3_alg».proof.Proof.Gen.Pre_finite_inputs
import proofs.«135367_g26749056319877_feedfinal_537_3_alg».proof.Proof.ZScore
import proofs.«135367_g26749056319877_feedfinal_537_3_alg».proof.Proof.ZScoreLaw
import proofs.«135367_g26749056319877_feedfinal_537_3_alg».proof.Proof.FiniteInputs
import proofs.«135367_g26749056319877_feedfinal_537_3_alg».proof.Proof.ZArray
import proofs.«135367_g26749056319877_feedfinal_537_3_alg».proof.Proof.RefRun
import proofs.«135367_g26749056319877_feedfinal_537_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its argument as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the input, the kernel's output array ends as the z-scored input (the product form)
    and the reference's result as its quotient form; the input's entries are reals by the precondition, where the
    two forms agree. -/
theorem algebraic : Cert.algebraic_KernelIdeal_ReferenceIdeal := by
  intro m ρ m' ρ' hpre hagree
  refine ⟨fun c => Cert.ZScore.zscore (m ((c : Thread Cert.KernelIdeal.nD Cert.KernelIdeal.τ).loc Cert.KernelIdeal.main_arg0)),
    Cert.KernelIdeal.ZArray.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  funext i
  obtain ⟨b, ch, s, rfl⟩ : ∃ (b : Fin 256) (ch : Fin 128) (s : Fin 2048), i = ix3 b ch s :=
    ⟨i 0, i 1, i 2, eq_ix3 i⟩
  rw [Cert.ReferenceIdeal.RefValue.out_eq]
  show _ = Cert.ZScore.kerOut (Cert.ZScore.slab (m ((c : Thread Cert.KernelIdeal.nD Cert.KernelIdeal.τ).loc Cert.KernelIdeal.main_arg0)) b) ch s
  exact (Cert.ZScore.kerOut_eq_refOut _
    (fun c' t' => Cert.FiniteInputs.real_of_pre _ (hpre c) (ix3 b c' t')) ch s).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
